-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256x256 : Shape := ⟨3, ![512, 256, 256]⟩
abbrev S256x1 : Shape := ⟨2, ![256, 1]⟩
abbrev S256 : Shape := ⟨1, ![256]⟩
abbrev S_ : Shape := ⟨0, ![]⟩

class Facts : Prop where
  bcast_S_S512x256x256 : S_.BroadcastsInDim S512x256x256 (![] : Fin 0 → Fin S512x256x256.rank)
  reducesTo_S512x256x256_S_d0_1_2 : S512x256x256.ReducesTo [0, 1, 2] S_
  h_S_ : 0 < S_.numel
  bcast_S_S256x1 : S_.BroadcastsInDim S256x1 (![] : Fin 0 → Fin S256x1.rank)
  reducesTo_S256x1_S_d0_1 : S256x1.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S512x256x256 .f32) (main_arg1 : FVec F S256x1 .f32) (main_arg2 : FVec F S256 .f32) : IVec S_ 1 :=
  let main_v0 : FVec F S512x256x256 .f32 := Host.absf main_arg0
  let main_cst : FVec F S_ .f32 := constant S_ .f32 0x7F800000#32
  let main_v1 : FVec F S512x256x256 .f32 := broadcastInDim S512x256x256 ![] bcast_S_S512x256x256 main_cst
  let main_v2 : IVec S512x256x256 1 := cmpf .olt main_v0 main_v1
  let main_c : IVec S_ 1 := constantI S_ 1 1#1
  let main_v3 : IVec S_ 1 := (fun x v => Host.reduce IntOp.andi x v reducesTo_S512x256x256_S_d0_1_2 h_S_) main_v2 main_c
  let main_v4 : FVec F S256x1 .f32 := Host.absf main_arg1
  let main_cst_0 : FVec F S_ .f32 := constant S_ .f32 0x7F800000#32
  let main_v5 : FVec F S256x1 .f32 := broadcastInDim S256x1 ![] bcast_S_S256x1 main_cst_0
  let main_v6 : IVec S256x1 1 := cmpf .olt main_v4 main_v5
  let main_c_1 : IVec S_ 1 := constantI S_ 1 1#1
  let main_v7 : IVec S_ 1 := (fun x v => Host.reduce IntOp.andi x v reducesTo_S256x1_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S512x256x256 : Shape := ⟨3, ![512, 256, 256]⟩
abbrev S256x1 : Shape := ⟨2, ![256, 1]⟩
abbrev S256 : Shape := ⟨1, ![256]⟩
abbrev S1x256 : Shape := ⟨2, ![1, 256]⟩
abbrev S1x256x1 : Shape := ⟨3, ![1, 256, 1]⟩
abbrev S16x256x256 : Shape := ⟨3, ![16, 256, 256]⟩
abbrev S16x256 : Shape := ⟨2, ![16, 256]⟩
abbrev S16x256x1 : Shape := ⟨3, ![16, 256, 1]⟩
abbrev S16x1x256 : Shape := ⟨3, ![16, 1, 256]⟩
abbrev S16x1x1 : Shape := ⟨3, ![16, 1, 1]⟩
abbrev S1x1x256 : Shape := ⟨3, ![1, 1, 256]⟩
abbrev S16x1 : Shape := ⟨2, ![16, 1]⟩

abbrev nBuf : Space → Nat
  | .hbm => 6
  | .vmem => 6
  | .smem => 0
  | _ => 0

abbrev bufTy : (tb : Table) → Fin (tcTables nBuf tb) → BufTy
  | .hbm, ⟨0, _⟩ => ⟨S512x256x256, .f32⟩
  | .hbm, ⟨1, _⟩ => ⟨S256x1, .f32⟩
  | .hbm, ⟨2, _⟩ => ⟨S256, .f32⟩
  | .hbm, ⟨3, _⟩ => ⟨S1x256, .f32⟩
  | .hbm, ⟨4, _⟩ => ⟨S1x256x1, .f32⟩
  | .hbm, ⟨5, _⟩ => ⟨S512x256x256, .f32⟩
  | .local _ .vmem, ⟨0, _⟩ => ⟨S16x256x256, .f32⟩
  | .local _ .vmem, ⟨1, _⟩ => ⟨S16x256x256, .f32⟩
  | .local _ .vmem, ⟨2, _⟩ => ⟨S1x256, .f32⟩
  | .local _ .vmem, ⟨3, _⟩ => ⟨S1x256x1, .f32⟩
  | .local _ .vmem, ⟨4, _⟩ => ⟨S16x256x256, .f32⟩
  | .local _ .vmem, ⟨5, _⟩ => ⟨S16x256x256, .f32⟩
  | _, _ => ⟨S512x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S256x1_S1x256 : S256x1.ShapeCasts S1x256
  shapeCasts_S256_S1x256x1 : S256.ShapeCasts S1x256x1
  inb_S16x256x256_S16x256x256_0_0_0 : ∀ a, (![0, 0, 0] : Fin 3 → Nat) a + S16x256x256.size a ≤ S16x256x256.size a
  h_S16x256x256 : 0 < S16x256x256.numel
  bitsLt_bf16_f32 : FTy.bits .bf16 < FTy.bits .f32
  reduces_S16x256x256_S16x256 : S16x256x256.Reduces [2] S16x256
  shapeCasts_S16x256_S16x256x1 : S16x256.ShapeCasts S16x256x1
  slices_S16x256x256_o0_128_0_S16x1x256 : S16x256x256.Slices ![0, 128, 0] S16x1x256
  slices_S16x256x1_o0_128_0_S16x1x1 : S16x256x1.Slices ![0, 128, 0] S16x1x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S16x1x1_S16x1x256 : S16x1x1.Broadcasts S16x1x256
  shapeCasts_S1x256_S1x1x256 : S1x256.ShapeCasts S1x1x256
  broadcasts_S1x1x256_S16x1x256 : S1x1x256.Broadcasts S16x1x256
  transposes_S16x1x256_p0_2_1_S16x256x1 : S16x1x256.Transposes [0, 2, 1] S16x256x1
  inb_S1x256x1_S1x256x1_0_0_0 : ∀ a, (![0, 0, 0] : Fin 3 → Nat) a + S1x256x1.size a ≤ S1x256x1.size a
  h_S1x256x1 : 0 < S1x256x1.numel
  shapeCasts_S1x256x1_S1x256x1 : S1x256x1.ShapeCasts S1x256x1
  broadcasts_S1x256x1_S16x256x1 : S1x256x1.Broadcasts S16x256x1
  reduces_S16x256x1_S16x1 : S16x256x1.Reduces [1] S16x1
  shapeCasts_S16x1_S16x1x1 : S16x1.ShapeCasts S16x1x1
  broadcasts_S16x1x1_S16x256x1 : S16x1x1.Broadcasts S16x256x1
  broadcasts_S16x256x1_S16x256x256 : S16x256x1.Broadcasts S16x256x256
  dot_S16x256x256_S16x256x256_S16x256x256_2_2_1_1_0_0_wf : DotDims.WF S16x256x256 S16x256x256 S16x256x256 [2] [2] [1] [1] [0] [0]
  dot_S16x256x256_S16x256x1_S16x256x1_2_1_1_2_0_0_wf : DotDims.WF S16x256x256 S16x256x1 S16x256x1 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x256.size a ≤ S512x256x256.size a
  hwx0_0 : ∀ i : grid0.Coords, EltTy.bits .f32 = 32 ∨ (Rect.block (s := S512x256x256) S16x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S1x256x1.size a
  hwx0_2 : ∀ i : grid0.Coords, EltTy.bits .f32 = 32 ∨ (Rect.block (s := S1x256x1) S1x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x256x256.size a ≤ S512x256x256.size a
  hwx0_3 : ∀ i : grid0.Coords, EltTy.bits .f32 = 32 ∨ (Rect.block (s := S512x256x256) S16x256x256.size (cc0_transform_3 i) (hinb0_3 i)).WholeWords (EltTy.packing .f32)

variable [Facts₀]

def dot_S16x256x256_S16x256x256_S16x256x256_2_2_1_1_0_0 : DotDims S16x256x256 S16x256x256 S16x256x256 where
  lhsContracting := [2]
  rhsContracting := [2]
  lhsNonContracting := [1]
  rhsNonContracting := [1]
  lhsBatch := [0]
  rhsBatch := [0]
  wf := dot_S16x256x256_S16x256x256_S16x256x256_2_2_1_1_0_0_wf
def dot_S16x256x256_S16x256x1_S16x256x1_2_1_1_2_0_0 : DotDims S16x256x256 S16x256x1 S16x256x1 where
  lhsContracting := [2]
  rhsContracting := [1]
  lhsNonContracting := [1]
  rhsNonContracting := [2]
  lhsBatch := [0]
  rhsBatch := [0]
  wf := dot_S16x256x256_S16x256x1_S16x256x1_2_1_1_2_0_0_wf

abbrev win0_0 : Pipeline.Window sig grid0 :=
  Pipeline.Window.ofSpec (Memref.whole main_arg0) S16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S16x256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x256x256 : Shape := ⟨3, ![512, 256, 256]⟩
abbrev S256x1 : Shape := ⟨2, ![256, 1]⟩
abbrev S256 : Shape := ⟨1, ![256]⟩
abbrev S_ : Shape := ⟨0, ![]⟩
abbrev S512x256 : Shape := ⟨2, ![512, 256]⟩
abbrev S512x256x1 : Shape := ⟨3, ![512, 256, 1]⟩
abbrev S512x1x256 : Shape := ⟨3, ![512, 1, 256]⟩
abbrev S1x256x1 : Shape := ⟨3, ![1, 256, 1]⟩
abbrev S512x1 : Shape := ⟨2, ![512, 1]⟩
abbrev S512x1x1 : Shape := ⟨3, ![512, 1, 1]⟩

abbrev nBuf : Space → Nat
  | .hbm => 40
  | .vmem => 0
  | .smem => 0
  | _ => 0

abbrev bufTy : (tb : Table) → Fin (tcTables nBuf tb) → BufTy
  | .hbm, ⟨0, _⟩ => ⟨S512x256x256, .f32⟩
  | .hbm, ⟨1, _⟩ => ⟨S256x1, .f32⟩
  | .hbm, ⟨2, _⟩ => ⟨S256, .f32⟩
  | .hbm, ⟨3, _⟩ => ⟨S512x256x256, .f32⟩
  | .hbm, ⟨4, _⟩ => ⟨S512x256x256, .f32⟩
  | .hbm, ⟨5, _⟩ => ⟨S_, .f32⟩
  | .hbm, ⟨6, _⟩ => ⟨S512x256, .f32⟩
  | .hbm, ⟨7, _⟩ => ⟨S512x256x1, .f32⟩
  | .hbm, ⟨8, _⟩ => ⟨S_, .f32⟩
  | .hbm, ⟨9, _⟩ => ⟨S512x256x1, .f32⟩
  | .hbm, ⟨10, _⟩ => ⟨S512x256x1, .f32⟩
  | .hbm, ⟨11, _⟩ => ⟨S512x256x1, .f32⟩
  | .hbm, ⟨12, _⟩ => ⟨S512x256x256, .f32⟩
  | .hbm, ⟨13, _⟩ => ⟨S512x256x256, .f32⟩
  | .hbm, ⟨14, _⟩ => ⟨S512x1x256, .f32⟩
  | .hbm, ⟨15, _⟩ => ⟨S512x256, .f32⟩
  | .hbm, ⟨16, _⟩ => ⟨S512x256x1, .f32⟩
  | .hbm, ⟨17, _⟩ => ⟨S1x256x1, .f32⟩
  | .hbm, ⟨18, _⟩ => ⟨S512x256x1, .f32⟩
  | .hbm, ⟨19, _⟩ => ⟨S512x256x1, .f32⟩
  | .hbm, ⟨20, _⟩ => ⟨S512x256x1, .f32⟩
  | .hbm, ⟨21, _⟩ => ⟨S1x256x1, .f32⟩
  | .hbm, ⟨22, _⟩ => ⟨S512x256x1, .f32⟩
  | .hbm, ⟨23, _⟩ => ⟨S512x256x1, .f32⟩
  | .hbm, ⟨24, _⟩ => ⟨S_, .f32⟩
  | .hbm, ⟨25, _⟩ => ⟨S512x1, .f32⟩
  | .hbm, ⟨26, _⟩ => ⟨S_, .f32⟩
  | .hbm, ⟨27, _⟩ => ⟨S512x1, .f32⟩
  | .hbm, ⟨28, _⟩ => ⟨S512x1, .f32⟩
  | .hbm, ⟨29, _⟩ => ⟨S512x1x1, .f32⟩
  | .hbm, ⟨30, _⟩ => ⟨S512x256x1, .f32⟩
  | .hbm, ⟨31, _⟩ => ⟨S512x256x1, .f32⟩
  | .hbm, ⟨32, _⟩ => ⟨S512x256x1, .f32⟩
  | .hbm, ⟨33, _⟩ => ⟨S_, .f32⟩
  | .hbm, ⟨34, _⟩ => ⟨S512x1, .f32⟩
  | .hbm, ⟨35, _⟩ => ⟨S512x1x1, .f32⟩
  | .hbm, ⟨36, _⟩ => ⟨S512x256x1, .f32⟩
  | .hbm, ⟨37, _⟩ => ⟨S512x256x1, .f32⟩
  | .hbm, ⟨38, _⟩ => ⟨S512x256x256, .f32⟩
  | .hbm, ⟨39, _⟩ => ⟨S512x256x256, .f32⟩
  | _, _ => ⟨S512x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]

class Facts₀ : Prop where
  reducesTo_S512x256x256_S512x256_d2 : S512x256x256.ReducesTo [2] S512x256
  h_S_ : 0 < S_.numel
  bcast_S512x256_S512x256x1_0_1 : S512x256.BroadcastsInDim S512x256x1 (![0, 1] : Fin 2 → Fin S512x256x1.rank)
  bcast_S_S512x256x1 : S_.BroadcastsInDim S512x256x1 (![] : Fin 0 → Fin S512x256x1.rank)
  bcast_S512x256x1_S512x256x256_0_1_2 : S512x256x1.BroadcastsInDim S512x256x256 (![0, 1, 2] : Fin 3 → Fin S512x256x256.rank)
  slices_S512x256x256_S512x1x256_0_128_0 : S512x256x256.Slices ![0, 128, 0] S512x1x256
  shapeCasts_S512x1x256_S512x256 : S512x1x256.ShapeCasts S512x256
  bcast_S256x1_S1x256x1_1_2 : S256x1.BroadcastsInDim S1x256x1 (![1, 2] : Fin 2 → Fin S1x256x1.rank)
  bcast_S1x256x1_S512x256x1_0_1_2 : S1x256x1.BroadcastsInDim S512x256x1 (![0, 1, 2] : Fin 3 → Fin S512x256x1.rank)
  bcast_S256_S1x256x1_1 : S256.BroadcastsInDim S1x256x1 (![1] : Fin 1 → Fin S1x256x1.rank)
  reducesTo_S512x256x1_S512x1_d1 : S512x256x1.ReducesTo [1] S512x1
  bcast_S_S512x1 : S_.BroadcastsInDim S512x1 (![] : Fin 0 → Fin S512x1.rank)
  bcast_S512x1_S512x1x1_0_2 : S512x1.BroadcastsInDim S512x1x1 (![0, 2] : Fin 2 → Fin S512x1x1.rank)
  bcast_S512x1x1_S512x256x1_0_1_2 : S512x1x1.BroadcastsInDim S512x256x1 (![0, 1, 2] : Fin 3 → Fin S512x256x1.rank)
  dot_S512x256x256_S512x256x256_S512x256x256_2_2_1_1_0_0_wf : DotDims.WF S512x256x256 S512x256x256 S512x256x256 [2] [2] [1] [1] [0] [0]
  dot_S512x256x256_S512x256x1_S512x256x1_2_1_1_2_0_0_wf : DotDims.WF S512x256x256 S512x256x1 S512x256x1 [2] [1] [1] [2] [0] [0]

variable [Facts₀]

def dot_S512x256x256_S512x256x256_S512x256x256_2_2_1_1_0_0 : DotDims S512x256x256 S512x256x256 S512x256x256 where
  lhsContracting := [2]
  rhsContracting := [2]
  lhsNonContracting := [1]
  rhsNonContracting := [1]
  lhsBatch := [0]
  rhsBatch := [0]
  wf := dot_S512x256x256_S512x256x256_S512x256x256_2_2_1_1_0_0_wf
def dot_S512x256x256_S512x256x1_S512x256x1_2_1_1_2_0_0 : DotDims S512x256x256 S512x256x1 S512x256x1 where
  lhsContracting := [2]
  rhsContracting := [1]
  lhsNonContracting := [1]
  rhsNonContracting := [2]
  lhsBatch := [0]
  rhsBatch := [0]
  wf := dot_S512x256x256_S512x256x1_S512x256x1_2_1_1_2_0_0_wf

class Facts : Prop extends Facts₀ where

variable [Facts]
-- ==== Proof.Spec.lean ====
/-
  The mathematics both programs compute, for ONE batch element and then for the whole array, on the extended reals.
  A batch element is a 256 × 256 matrix X (rows n, features c). Its self-similarity is sim n m = Σ_c X n c · X m c;
  a row's squared length is ssq n = Σ_m (sim n m)²; inv n = (max (ssq n) ε)^(-1/2) normalises row n of sim. The middle
  row (n = 128), normalised and weighted by κ, is the gate vector gate m = sim 128 m · inv 128 · κ m. A row's logit is the
  normalised row of sim against the gate plus a bias: written with the normalisation OUTSIDE the sum,
  inv n · Σ_m sim n m · gate m + β n (logitOut), or INSIDE it, Σ_m (sim n m · inv n) · gate m + β n (logitIn).
  The result is the softmax of the logits over the rows (shifted by their maximum, the fold of max from -∞) times X.
-/
import Idealize.ShloMosaic.PureOps.Ideal
import Idealize.ShloMosaic.Lib.ValueIdx

noncomputable section

open scoped BigOperators

namespace Cert.SimGate

open Idealize.ShloMosaic Idealize.ShloMosaic.ValueIdx

/-- One batch element: rows by features. -/
abbrev Mat := Fin 256 → Fin 256 → EReal
/-- One value per row. -/
abbrev Row := Fin 256 → EReal

/-- The floor under a squared length: the f32 word both programs print. -/
def eps : EReal := Ideal.ofBits .f32 0x2B8CBCCC#32
/-- The value a maximum starts from: the f32 word of -∞. -/
def negInf : EReal := Ideal.ofBits .f32 0xFF800000#32
/-- The middle row. -/
def mid : Fin 256 := ⟨128, by decide⟩

/-- Self-similarity of rows n and m. -/
def sim (X : Mat) (n m : Fin 256) : EReal := ∑ c : Fin 256, X n c * X m c
/-- Squared length of row n of the self-similarity. -/
def ssq (X : Mat) (n : Fin 256) : EReal := ∑ m : Fin 256, sim X n m * sim X n m
/-- The normaliser of row n. -/
def inv (X : Mat) (n : Fin 256) : EReal := Ideal.rsqrt (max (ssq X n) eps)
/-- The middle row, normalised, weighted by κ. -/
def gate (X : Mat) (κ : Row) (m : Fin 256) : EReal := sim X mid m * inv X mid * κ m
/-- A row's logit, the normaliser outside the sum. -/
def logitOut (X : Mat) (κ β : Row) (n : Fin 256) : EReal := inv X n * (∑ m : Fin 256, sim X n m * gate X κ m) + β n
/-- A row's logit, the normaliser inside the sum. -/
def logitIn (X : Mat) (κ β : Row) (n : Fin 256) : EReal := (∑ m : Fin 256, sim X n m * inv X n * gate X κ m) + β n
/-- The largest logit: the fold of max over the rows from -∞. -/
def top (w : Row) : EReal := (Finset.univ : Finset (Fin 256)).fold max negInf w
/-- The softmax over the rows, shifted by the largest logit. -/
def soft (w : Row) (n : Fin 256) : EReal :=
  Ideal.div (Ideal.exp (w n - top w)) (∑ n' : Fin 256, Ideal.exp (w n' - top w))

/-- Batch element b of the input array. -/
def slab (x : (⟨3, ![512, 256, 256]⟩ : Shape).Idx → EReal) (b : Fin 512) : Mat := fun n c => x (ix3 b n c)
/-- The weight column as one value per row. -/
def col (k : (⟨2, ![256, 1]⟩ : Shape).Idx → EReal) : Row := fun m => k (ix2 m (0 : Fin 1))
/-- The bias vector as one value per row. -/
def vec (β : (⟨1, ![256]⟩ : Shape).Idx → EReal) : Row := fun n => β (ix1 n)

/-- The whole result with the normaliser outside the sum: entry (b, n, c) is the softmax weight of row n of batch
    element b times the input there. -/
def resultOut (x : (⟨3, ![512, 256, 256]⟩ : Shape).Idx → EReal) (k : (⟨2, ![256, 1]⟩ : Shape).Idx → EReal)
    (β : (⟨1, ![256]⟩ : Shape).Idx → EReal) : (⟨3, ![512, 256, 256]⟩ : Shape).Idx → EReal :=
  fun i => soft (logitOut (slab x (i 0)) (col k) (vec β)) (i 1) * x i
/-- The whole result with the normaliser inside the sum. -/
def resultIn (x : (⟨3, ![512, 256, 256]⟩ : Shape).Idx → EReal) (k : (⟨2, ![256, 1]⟩ : Shape).Idx → EReal)
    (β : (⟨1, ![256]⟩ : Shape).Idx → EReal) : (⟨3, ![512, 256, 256]⟩ : Shape).Idx → EReal :=
  fun i => soft (logitIn (slab x (i 0)) (col k) (vec β)) (i 1) * x i

end Cert.SimGate

end
-- ==== Proof.LibKeepdims3.lean ====
/-
  Rank-3 arrays with a kept unit axis, read at an index given by coordinates: the layout operations and the one-axis
  reductions a body meets when it sums or maximises over an axis with the axis kept (size 1) and broadcasts the result back.
  Every lemma names the operand's index by coordinates (`ix2`, `ix3` over literal extents), so it applies by unification.
  • a cast that appends a unit axis: an [a, b] array cast to [a, b, 1] at (i, j, u) is the operand at (i, j);
  • a broadcast between rank-3 shapes at (i, j, l) is the operand at the index that is 0 on each unit axis of the operand
    and the result's coordinate elsewhere (`broadcastTo3_apply`, with the five unit patterns named after it);
  • a float sum over the last or the middle axis at the kept coordinates is the `Fin`-indexed sum over that axis, and a
    float maximum over the middle axis is the fold of max from the accumulator's value over that axis.
-/
import Idealize.ShloMosaic.Lib.Pipeline.Value
import Idealize.ShloMosaic.Lib.ValueIdx
import Idealize.ShloMosaic.PureOps.Ideal.Laws

open scoped BigOperators

namespace Cert.LibKeepdims3

open Idealize.ShloMosaic Idealize.ShloMosaic.ValueIdx

variable {α : Type}

/-! ## A cast that appends a unit axis -/

/-- An `[a, b]` array cast to `[a, b, 1]` reads, at `(i, j, u)`, the operand at `(i, j)`: the two row-major positions
    are `i·b + j` and `(i·b + j)·1 + 0`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-! ## A broadcast between rank-3 shapes -/

/-- A `[p, q, r]` array broadcast to `[a, b, c]` reads, at `(i, j, l)`, the operand at the index whose coordinate on
    each axis is `0` where the operand's extent is one and the result's coordinate elsewhere. -/
theorem broadcastTo3_apply {p q r a b c : ℕ} (x : (⟨3, ![p, q, r]⟩ : Shape).Idx → α)
    (h : (⟨3, ![p, q, r]⟩ : Shape).Broadcasts ⟨3, ![a, b, c]⟩) (i : Fin a) (j : Fin b) (l : Fin c)
    (k0 : Fin p) (k1 : Fin q) (k2 : Fin r)
    (h0 : k0.val = if p = 1 then 0 else i.val) (h1 : k1.val = if q = 1 then 0 else j.val)
    (h2 : k2.val = if r = 1 then 0 else l.val) :
    broadcastTo ⟨3, ![a, b, c]⟩ x h (ix3 i j l) = x (ix3 k0 k1 k2) :=
  broadcastTo_apply x h (ix3 i j l) (ix3 k0 k1 k2) fun ax => by
    match ax with
    | ⟨0, _⟩ => exact h0
    | ⟨1, _⟩ => exact h1
    | ⟨2, _⟩ => exact h2

/-- A coordinate below an extent is the coordinate, or `0` when the extent is one. -/
theorem val_eq_ite {n : ℕ} (i : Fin n) : i.val = if n = 1 then 0 else i.val := by
  split
  · have := i.isLt; omega
  · rfl

/-- The unit coordinate is `0`. -/
theorem zero_eq_ite (v : ℕ) : (0 : Fin 1).val = if (1 : ℕ) = 1 then 0 else v := by rw [if_pos rfl]; rfl

/-- A column `[a, b, 1]` broadcast along the last axis to `[a, b, c]` reads, at `(i, j, l)`, the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ x h (ix3 i j l) = x (ix3 i j (0 : Fin 1)) :=
  broadcastTo3_apply x h i j l i j 0 (val_eq_ite i) (val_eq_ite j) (zero_eq_ite _)

/-- One value per leading index `[a, 1, 1]` broadcast along the middle axis to `[a, b, 1]` reads, at `(i, j, u)`, the
    operand at `(i, 0, 0)`. -/
theorem broadcastTo_a11_ab1_apply {a b : ℕ} (x : (⟨3, ![a, 1, 1]⟩ : Shape).Idx → α)
    (h : (⟨3, ![a, 1, 1]⟩ : Shape).Broadcasts ⟨3, ![a, b, 1]⟩) (i : Fin a) (j : Fin b) (u : Fin 1) :
    broadcastTo ⟨3, ![a, b, 1]⟩ x h (ix3 i j u) = x (ix3 i (0 : Fin 1) (0 : Fin 1)) :=
  broadcastTo3_apply x h i j u i 0 0 (val_eq_ite i) (zero_eq_ite _) (zero_eq_ite _)

/-- One value per leading index `[a, 1, 1]` broadcast along the last axis to `[a, 1, c]` reads, at `(i, u, l)`, the
    operand at `(i, 0, 0)`. -/
theorem broadcastTo_a11_a1c_apply {a c : ℕ} (x : (⟨3, ![a, 1, 1]⟩ : Shape).Idx → α)
    (h : (⟨3, ![a, 1, 1]⟩ : Shape).Broadcasts ⟨3, ![a, 1, c]⟩) (i : Fin a) (u : Fin 1) (l : Fin c) :
    broadcastTo ⟨3, ![a, 1, c]⟩ x h (ix3 i u l) = x (ix3 i (0 : Fin 1) (0 : Fin 1)) :=
  broadcastTo3_apply x h i u l i 0 0 (val_eq_ite i) (zero_eq_ite _) (zero_eq_ite _)

/-- One row `[1, 1, c]` broadcast over the leading axis to `[a, 1, c]` reads, at `(i, u, l)`, the operand at `(0, 0, l)`. -/
theorem broadcastTo_11c_a1c_apply {a c : ℕ} (x : (⟨3, ![1, 1, c]⟩ : Shape).Idx → α)
    (h : (⟨3, ![1, 1, c]⟩ : Shape).Broadcasts ⟨3, ![a, 1, c]⟩) (i : Fin a) (u : Fin 1) (l : Fin c) :
    broadcastTo ⟨3, ![a, 1, c]⟩ x h (ix3 i u l) = x (ix3 (0 : Fin 1) (0 : Fin 1) l) :=
  broadcastTo3_apply x h i u l 0 0 l (zero_eq_ite _) (zero_eq_ite _) (val_eq_ite l)

/-- One column `[1, b, 1]` broadcast over the leading axis to `[a, b, 1]` reads, at `(i, j, u)`, the operand at `(0, j, 0)`. -/
theorem broadcastTo_1b1_ab1_apply {a b : ℕ} (x : (⟨3, ![1, b, 1]⟩ : Shape).Idx → α)
    (h : (⟨3, ![1, b, 1]⟩ : Shape).Broadcasts ⟨3, ![a, b, 1]⟩) (i : Fin a) (j : Fin b) (u : Fin 1) :
    broadcastTo ⟨3, ![a, b, 1]⟩ x h (ix3 i j u) = x (ix3 (0 : Fin 1) j (0 : Fin 1)) :=
  broadcastTo3_apply x h i j u 0 j 0 (zero_eq_ite _) (val_eq_ite j) (zero_eq_ite _)

/-! ## One-axis reductions at the kept coordinates -/

variable {φ : FTy}

/-- A float sum over the LAST axis of an `[a, b, c]` array, at `(i, j)`, is the sum over `l` of the array at `(i, j, l)`. -/
theorem sumLast3_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ l : Fin c, src (ix3 i j l) :=
  (Ideal.multiReduction_add_single src acc h hφ hacc (ix2 i j)).trans
    (Finset.sum_congr rfl fun l _ => congrArg src (funext fun ax => by
      match ax with
      | ⟨0, _⟩ => rfl
      | ⟨1, _⟩ => rfl
      | ⟨2, _⟩ => rfl))

/-- A float sum over the MIDDLE axis of an `[a, b, c]` array, at `(i, l)`, is the sum over `j` of the array at `(i, j, l)`. -/
theorem sumMid3_apply {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (l : Fin c) :
    multiReduction .add [1] ⟨2, ![a, c]⟩ src acc h hφ hacc (ix2 i l) = ∑ j : Fin b, src (ix3 i j l) :=
  (Ideal.multiReduction_add_single src acc h hφ hacc (ix2 i l)).trans
    (Finset.sum_congr rfl fun j _ => congrArg src (funext fun ax => by
      match ax with
      | ⟨0, _⟩ => rfl
      | ⟨1, _⟩ => rfl
      | ⟨2, _⟩ => rfl))

/-- A float maximum over the MIDDLE axis of an `[a, b, c]` array, at `(i, l)`, is the fold of max, from the value the
    accumulator's word denotes, over `j` of the array at `(i, j, l)`. -/
theorem maxMid3_apply {a b c : ℕ} (src : FVec Ideal ⟨3, ![a, b, c]⟩ φ) (acc : BitVec φ.bits)
    (h : (⟨3, ![a, b, c]⟩ : Shape).Reduces [1] ⟨2, ![a, c]⟩) (hφ : FKind.Formats φ)
    (hacc : acc = FKind.maximumf.neutral φ hφ) (i : Fin a) (l : Fin c) :
    multiReduction .maximumf [1] ⟨2, ![a, c]⟩ src acc h hφ hacc (ix2 i l)
      = (Finset.univ : Finset (Fin b)).fold max (Ideal.ofBits φ acc) (fun j => src (ix3 i j l)) :=
  (Ideal.multiReduction_maximumf_single src acc h hφ hacc (ix2 i l)).trans
    (congrArg (fun f => (Finset.univ : Finset (Fin b)).fold max (Ideal.ofBits φ acc) f)
      (funext fun j => congrArg src (funext fun ax => by
        match ax with
        | ⟨0, _⟩ => rfl
        | ⟨1, _⟩ => rfl
        | ⟨2, _⟩ => rfl)))

end Cert.LibKeepdims3
-- ==== Proof.KernelBody.lean ====
/-
  The kernel body's stored value, read at an index. One grid point loads a block of 16 batch elements (16 × 256 × 256), the
  weight row (1 × 256) and the bias column (1 × 256 × 1), and stores, at (b, n, c), the softmax weight of row n of batch
  element b times the loaded entry. The body's arithmetic is cut here into the stages a reader would name — the
  self-similarity (a batched matrix product of the block with itself over the features), each row's normaliser (the
  reciprocal square root of the row's squared length floored at ε), the gate column (the middle row, normalised, weighted,
  transposed into a column), the logits (the normaliser times a batched matrix-vector product, plus the bias), their
  maximum over the rows, the shifted exponentials and the softmax quotient — and each stage is read at coordinates as the
  corresponding function of ONE batch element of the block (the specification's sim, inv, gate, logitOut, top, soft).
-/
import proofs.«123779_j18648747999777_2_alg».proof.Proof.Gen.KernelIdeal.Skeleton
import proofs.«123779_j18648747999777_2_alg».proof.Proof.Spec
import proofs.«123779_j18648747999777_2_alg».proof.Proof.LibKeepdims3
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.SimGate Cert.LibKeepdims3

/-! ## The two batched products' operand indices -/

/-- The block times itself over the features: out (b, n, m) contracts lhs (b, n, k) with rhs (b, m, k). -/
abbrev D1 : DotDims S16x256x256 S16x256x256 S16x256x256 := dot_S16x256x256_S16x256x256_S16x256x256_2_2_1_1_0_0
/-- The self-similarity times the gate column: out (b, n, u) contracts lhs (b, n, k) with rhs (b, k, u). -/
abbrev D2 : DotDims S16x256x256 S16x256x1 S16x256x1 := dot_S16x256x256_S16x256x1_S16x256x1_2_1_1_2_0_0

theorem D1_lhs_0 (i : S16x256x256.Idx) (q : D1.contr.Idx) : (D1.lhsIdx i q 0).val = (i 0).val := by
  unfold DotDims.lhsIdx
  rw [dif_pos (show (0 : Fin S16x256x256.rank) ∈ D1.lhsBatch by decide)]
  rfl
theorem D1_lhs_1 (i : S16x256x256.Idx) (q : D1.contr.Idx) : (D1.lhsIdx i q 1).val = (i 1).val := by
  unfold DotDims.lhsIdx
  rw [dif_neg (show ¬(1 : Fin S16x256x256.rank) ∈ D1.lhsBatch by decide), dif_pos (show (1 : Fin S16x256x256.rank) ∈ D1.lhsNonContracting by decide)]
  rfl
theorem D1_lhs_2 (i : S16x256x256.Idx) (q : D1.contr.Idx) : (D1.lhsIdx i q 2).val = (q ⟨0, by decide⟩).val :=
  D1.lhsIdx_val_of_single rfl i q
theorem D1_rhs_0 (i : S16x256x256.Idx) (q : D1.contr.Idx) : (D1.rhsIdx i q 0).val = (i 0).val := by
  unfold DotDims.rhsIdx
  rw [dif_pos (show (0 : Fin S16x256x256.rank) ∈ D1.rhsBatch by decide)]
  rfl
theorem D1_rhs_1 (i : S16x256x256.Idx) (q : D1.contr.Idx) : (D1.rhsIdx i q 1).val = (i 2).val := by
  unfold DotDims.rhsIdx
  rw [dif_neg (show ¬(1 : Fin S16x256x256.rank) ∈ D1.rhsBatch by decide), dif_pos (show (1 : Fin S16x256x256.rank) ∈ D1.rhsNonContracting by decide)]
  rfl
theorem D1_rhs_2 (i : S16x256x256.Idx) (q : D1.contr.Idx) : (D1.rhsIdx i q 2).val = (q ⟨0, by decide⟩).val :=
  D1.rhsIdx_val_of_single rfl i q

theorem D1_lhs (b : Fin 16) (n m k : Fin 256) :
    D1.lhsIdx (ix3 b n m) ((contrEquiv1 D1 256 rfl rfl).symm k) = ix3 b n k := by
  have hk := contrEquiv1_symm_val D1 256 rfl rfl k
  exact funext fun a => Fin.ext (by
    match a with
    | ⟨0, _⟩ => exact D1_lhs_0 _ _
    | ⟨1, _⟩ => exact D1_lhs_1 _ _
    | ⟨2, _⟩ => exact (D1_lhs_2 _ _).trans hk)
theorem D1_rhs (b : Fin 16) (n m k : Fin 256) :
    D1.rhsIdx (ix3 b n m) ((contrEquiv1 D1 256 rfl rfl).symm k) = ix3 b m k := by
  have hk := contrEquiv1_symm_val D1 256 rfl rfl k
  exact funext fun a => Fin.ext (by
    match a with
    | ⟨0, _⟩ => exact D1_rhs_0 _ _
    | ⟨1, _⟩ => exact D1_rhs_1 _ _
    | ⟨2, _⟩ => exact (D1_rhs_2 _ _).trans hk)

theorem D2_lhs_0 (i : S16x256x1.Idx) (q : D2.contr.Idx) : (D2.lhsIdx i q 0).val = (i 0).val := by
  unfold DotDims.lhsIdx
  rw [dif_pos (show (0 : Fin S16x256x256.rank) ∈ D2.lhsBatch by decide)]
  rfl
theorem D2_lhs_1 (i : S16x256x1.Idx) (q : D2.contr.Idx) : (D2.lhsIdx i q 1).val = (i 1).val := by
  unfold DotDims.lhsIdx
  rw [dif_neg (show ¬(1 : Fin S16x256x256.rank) ∈ D2.lhsBatch by decide), dif_pos (show (1 : Fin S16x256x256.rank) ∈ D2.lhsNonContracting by decide)]
  rfl
theorem D2_lhs_2 (i : S16x256x1.Idx) (q : D2.contr.Idx) : (D2.lhsIdx i q 2).val = (q ⟨0, by decide⟩).val :=
  D2.lhsIdx_val_of_single rfl i q
theorem D2_rhs_0 (i : S16x256x1.Idx) (q : D2.contr.Idx) : (D2.rhsIdx i q 0).val = (i 0).val := by
  unfold DotDims.rhsIdx
  rw [dif_pos (show (0 : Fin S16x256x1.rank) ∈ D2.rhsBatch by decide)]
  rfl
theorem D2_rhs_1 (i : S16x256x1.Idx) (q : D2.contr.Idx) : (D2.rhsIdx i q 1).val = (q ⟨0, by decide⟩).val :=
  D2.rhsIdx_val_of_single rfl i q
theorem D2_rhs_2 (i : S16x256x1.Idx) (q : D2.contr.Idx) : (D2.rhsIdx i q 2).val = (i 2).val := by
  unfold DotDims.rhsIdx
  rw [dif_neg (show ¬(2 : Fin S16x256x1.rank) ∈ D2.rhsBatch by decide), dif_pos (show (2 : Fin S16x256x1.rank) ∈ D2.rhsNonContracting by decide)]
  rfl

theorem D2_lhs (b : Fin 16) (n : Fin 256) (u : Fin 1) (k : Fin 256) :
    D2.lhsIdx (ix3 b n u) ((contrEquiv1 D2 256 rfl rfl).symm k) = ix3 b n k := by
  have hk := contrEquiv1_symm_val D2 256 rfl rfl k
  exact funext fun a => Fin.ext (by
    match a with
    | ⟨0, _⟩ => exact D2_lhs_0 _ _
    | ⟨1, _⟩ => exact D2_lhs_1 _ _
    | ⟨2, _⟩ => exact (D2_lhs_2 _ _).trans hk)
theorem D2_rhs (b : Fin 16) (n : Fin 256) (u : Fin 1) (k : Fin 256) :
    D2.rhsIdx (ix3 b n u) ((contrEquiv1 D2 256 rfl rfl).symm k) = ix3 b k u := by
  have hk := contrEquiv1_symm_val D2 256 rfl rfl k
  exact funext fun a => Fin.ext (by
    match a with
    | ⟨0, _⟩ => exact D2_rhs_0 _ _
    | ⟨1, _⟩ => exact (D2_rhs_1 _ _).trans hk
    | ⟨2, _⟩ => exact D2_rhs_2 _ _)

/-! ## The stages -/

variable (v0 : Vec Ideal S16x256x256 .f32) (v11 : Vec Ideal S1x256 .f32) (v22 : Vec Ideal S1x256x1 .f32)

/-- Batch element b of the loaded block. -/
def blkMat (b : Fin 16) : Mat := fun n c => v0 (ix3 b n c)
/-- The loaded weight row, one value per row index. -/
def wRow : Row := fun m => v11 (ix2 (0 : Fin 1) m)
/-- The loaded bias column, one value per row index. -/
def bRow : Row := fun n => v22 (ix3 (0 : Fin 1) n (0 : Fin 1))

/-- The self-similarity of every batch element of the block. -/
def bSim : FVec Ideal S16x256x256 .f32 :=
  matmul dot_S16x256x256_S16x256x256_S16x256x256_2_2_1_1_0_0 none (truncf .bf16 v0 bitsLt_bf16_f32) (truncf .bf16 v0 bitsLt_bf16_f32)
    (constant S16x256x256 .f32 0x00000000#32)

/-- Each row's normaliser, as a column. -/
def bInv : FVec Ideal S16x256x1 .f32 :=
  rsqrt (maximumf
    (shapeCast S16x256x1 (multiReduction .add [2] S16x256 (mulf (bSim v0) (bSim v0)) 0x00000000#32 reduces_S16x256x256_S16x256 (.inl rfl) rfl)
      shapeCasts_S16x256_S16x256x1)
    (broadcast S16x256x1 (Scalar.ofBits .f32 0x2B8CBCCC#32)))

/-- The gate: the middle row times its normaliser times the weight row, transposed into a column. -/
def bGate : FVec Ideal S16x256x1 .f32 :=
  transpose S16x256x1 [0, 2, 1]
    (mulf
      (mulf (extractStridedSlice S16x1x256 ![0, 128, 0] (bSim v0) slices_S16x256x256_o0_128_0_S16x1x256)
        (broadcastTo S16x1x256 (extractStridedSlice S16x1x1 ![0, 128, 0] (bInv v0) slices_S16x256x1_o0_128_0_S16x1x1)
          broadcasts_S16x1x1_S16x1x256))
      (broadcastTo S16x1x256 (shapeCast S1x1x256 (shapeCast S1x256 v11 shapeCasts_S1x256_S1x256) shapeCasts_S1x256_S1x1x256)
        broadcasts_S1x1x256_S16x1x256))
    transposes_S16x1x256_p0_2_1_S16x256x1

/-- The logits, as a column. -/
def bLogit : FVec Ideal S16x256x1 .f32 :=
  addf
    (mulf (bInv v0)
      (matmul dot_S16x256x256_S16x256x1_S16x256x1_2_1_1_2_0_0 none (truncf .bf16 (bSim v0) bitsLt_bf16_f32)
        (truncf .bf16 (bGate v0 v11) bitsLt_bf16_f32) (constant S16x256x1 .f32 0x00000000#32)))
    (broadcastTo S16x256x1 (shapeCast S1x256x1 v22 shapeCasts_S1x256x1_S1x256x1) broadcasts_S1x256x1_S16x256x1)

/-- The largest logit of each batch element. -/
def bTop : FVec Ideal S16x1 .f32 :=
  multiReduction .maximumf [1] S16x1 (bLogit v0 v11 v22) 0xFF800000#32 reduces_S16x256x1_S16x1 (.inl rfl) rfl

/-- The exponentials of the shifted logits. -/
def bExp : FVec Ideal S16x256x1 .f32 :=
  exp (subf (bLogit v0 v11 v22)
    (broadcastTo S16x256x1 (shapeCast S16x1x1 (bTop v0 v11 v22) shapeCasts_S16x1_S16x1x1) broadcasts_S16x1x1_S16x256x1))

/-- The softmax weights. -/
def bSoft : FVec Ideal S16x256x1 .f32 :=
  divf (bExp v0 v11 v22)
    (broadcastTo S16x256x1
      (shapeCast S16x1x1 (multiReduction .add [1] S16x1 (bExp v0 v11 v22) 0x00000000#32 reduces_S16x256x1_S16x1 (.inl rfl) rfl)
        shapeCasts_S16x1_S16x1x1)
      broadcasts_S16x1x1_S16x256x1)

/-- The stored value is the softmax weights, broadcast along the features, times the loaded block. -/
theorem pay_eq : k0_pay1 v0 v11 v22 = mulf (broadcastTo S16x256x256 (bSoft v0 v11 v22) broadcasts_S16x256x1_S16x256x256) v0 := rfl

/-! ## Each stage at coordinates -/

theorem bSim_at (b : Fin 16) (n m : Fin 256) : bSim v0 (ix3 b n m) = sim (blkMat v0 b) n m := by
  unfold bSim sim blkMat
  refine (Ideal.matmul_constant_zero_apply D1 none _ _ (ix3 b n m)).trans ?_
  rw [← Equiv.sum_comp (contrEquiv1 D1 256 rfl rfl).symm]
  refine Finset.sum_congr rfl fun k _ => ?_
  rw [D1_lhs, D1_rhs]
  rfl

/-- The middle row is row 128: the slice's offset plus the unit coordinate. -/
theorem mid_val (u : Fin 1) : mid.val = 128 + u.val := by
  have := u.isLt
  show 128 = 128 + u.val
  omega

theorem bInv_at (b : Fin 16) (n : Fin 256) (u : Fin 1) : bInv v0 (ix3 b n u) = inv (blkMat v0 b) n := by
  unfold bInv SimGate.inv ssq eps
  show Ideal.rsqrt (max (shapeCast S16x256x1 _ shapeCasts_S16x256_S16x256x1 (ix3 b n u)) (Ideal.ofBits .f32 0x2B8CBCCC#32)) = _
  refine congrArg (fun z => Ideal.rsqrt (max z (Ideal.ofBits .f32 0x2B8CBCCC#32))) ?_
  refine (shapeCast_ab_ab1_apply _ _ b n u).trans ?_
  refine (sumLast3_apply _ _ _ _ _ b n).trans ?_
  refine Finset.sum_congr rfl fun m _ => ?_
  show bSim v0 (ix3 b n m) * bSim v0 (ix3 b n m) = _
  rw [bSim_at]

theorem bGate_at (b : Fin 16) (m : Fin 256) (u : Fin 1) : bGate v0 v11 (ix3 b m u) = gate (blkMat v0 b) (wRow v11) m := by
  unfold bGate gate wRow
  refine (transpose_ix3_021_apply _ _ b m u).trans ?_
  show extractStridedSlice S16x1x256 ![0, 128, 0] (bSim v0) _ (ix3 b u m) * broadcastTo S16x1x256 _ _ (ix3 b u m)
      * broadcastTo S16x1x256 _ _ (ix3 b u m) = _
  refine congrArg₂ (· * ·) (congrArg₂ (· * ·) ?_ ?_) ?_
  · exact (slice3_axis1_apply 128 _ _ b u m mid (mid_val u)).trans (bSim_at v0 b mid m)
  · exact (broadcastTo_a11_a1c_apply _ _ b u m).trans
      ((slice3_axis1_apply 128 _ _ b (0 : Fin 1) (0 : Fin 1) mid (mid_val 0)).trans (bInv_at v0 b mid 0))
  · exact (broadcastTo_11c_a1c_apply _ _ b u m).trans
      ((shapeCast_ab_1ab_apply _ _ (0 : Fin 1) (0 : Fin 1) m).trans (congrFun (shapeCast_self v11 _) _))

theorem bLogit_at (b : Fin 16) (n : Fin 256) (u : Fin 1) :
    bLogit v0 v11 v22 (ix3 b n u) = logitOut (blkMat v0 b) (wRow v11) (bRow v22) n := by
  unfold bLogit logitOut bRow
  show bInv v0 (ix3 b n u) * matmul D2 none _ _ _ (ix3 b n u) + broadcastTo S16x256x1 _ _ (ix3 b n u) = _
  refine congrArg₂ (· + ·) (congrArg₂ (· * ·) (bInv_at v0 b n u) ?_) ?_
  · refine (Ideal.matmul_constant_zero_apply D2 none _ _ (ix3 b n u)).trans ?_
    rw [← Equiv.sum_comp (contrEquiv1 D2 256 rfl rfl).symm]
    refine Finset.sum_congr rfl fun k _ => ?_
    rw [D2_lhs, D2_rhs]
    show bSim v0 (ix3 b n k) * bGate v0 v11 (ix3 b k u) = _
    rw [bSim_at, bGate_at]
  · exact (broadcastTo_1b1_ab1_apply _ _ b n u).trans (congrFun (shapeCast_self v22 _) _)

theorem bTop_at (b : Fin 16) (u : Fin 1) :
    bTop v0 v11 v22 (ix2 b u) = top (logitOut (blkMat v0 b) (wRow v11) (bRow v22)) := by
  unfold bTop top negInf
  refine (maxMid3_apply _ _ _ _ _ b u).trans ?_
  exact congrArg (fun f => (Finset.univ : Finset (Fin 256)).fold max (Ideal.ofBits .f32 0xFF800000#32) f)
    (funext fun j => bLogit_at v0 v11 v22 b j u)

theorem bExp_at (b : Fin 16) (n : Fin 256) (u : Fin 1) :
    bExp v0 v11 v22 (ix3 b n u)
      = Ideal.exp (logitOut (blkMat v0 b) (wRow v11) (bRow v22) n - top (logitOut (blkMat v0 b) (wRow v11) (bRow v22))) := by
  unfold bExp
  show Ideal.exp (bLogit v0 v11 v22 (ix3 b n u) - broadcastTo S16x256x1 _ _ (ix3 b n u)) = _
  refine congrArg Ideal.exp (congrArg₂ (· - ·) (bLogit_at v0 v11 v22 b n u) ?_)
  exact (broadcastTo_a11_ab1_apply _ _ b n u).trans
    ((shapeCast_ab_ab1_apply _ _ b (0 : Fin 1) (0 : Fin 1)).trans (bTop_at v0 v11 v22 b 0))

theorem bSoft_at (b : Fin 16) (n : Fin 256) (u : Fin 1) :
    bSoft v0 v11 v22 (ix3 b n u) = soft (logitOut (blkMat v0 b) (wRow v11) (bRow v22)) n := by
  unfold bSoft soft
  show Ideal.div (bExp v0 v11 v22 (ix3 b n u)) (broadcastTo S16x256x1 _ _ (ix3 b n u)) = _
  refine congrArg₂ Ideal.div (bExp_at v0 v11 v22 b n u) ?_
  exact (broadcastTo_a11_ab1_apply _ _ b n u).trans
    ((shapeCast_ab_ab1_apply _ _ b (0 : Fin 1) (0 : Fin 1)).trans
      ((sumMid3_apply _ _ _ _ _ b (0 : Fin 1)).trans (Finset.sum_congr rfl fun j _ => bExp_at v0 v11 v22 b j 0)))

/-- THE STORED VALUE AT (b, n, c): the softmax weight of row n of batch element b of the block, times the block's entry. -/
theorem pay_at (b : Fin 16) (n c : Fin 256) :
    k0_pay1 v0 v11 v22 (ix3 b n c) = soft (logitOut (blkMat v0 b) (wRow v11) (bRow v22)) n * v0 (ix3 b n c) := by
  rw [pay_eq]
  show broadcastTo S16x256x256 _ _ (ix3 b n c) * v0 (ix3 b n c) = _
  refine congrArg (· * v0 (ix3 b n c)) ?_
  exact (broadcastTo_ab1_abc_apply _ _ b n c).trans (bSoft_at v0 v11 v22 b n 0)

end Cert.KernelIdeal.Body

end
-- ==== Proof.KernelValue.lean ====
/-
  From blocks to the whole array. The grid has 32 points; point t loads batch elements 16·t … 16·t + 15 of the input
  (all rows, all features), the whole weight row and the whole bias column, and writes back the same batch elements of
  the output. The weight row the region finds is the weight column reshaped (entry (0, m) is entry (m, 0)) and the bias
  column is the bias vector reshaped (entry (0, n, 0) is entry n). So what point t writes back is block t of ONE
  whole-array function of the three arguments — the specification's result with the normaliser outside the sum —, the
  32 blocks tile the output (batch element b lies in block b / 16), and the output array ends holding that function.
-/
import proofs.«123779_j18648747999777_2_alg».proof.Proof.Gen.KernelIdeal.Value
import proofs.«123779_j18648747999777_2_alg».proof.Proof.KernelBody
import Idealize.ShloMosaic.Lib.StableHlo.Run

set_option maxRecDepth 16384

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.SimGate
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The arrays the region finds -/

/-- The weight row the region finds is the weight column, reshaped. -/
theorem V_weight (c : Dev nD) :
    (V m c main_v0 : S1x256.Idx → EReal) = shapeCast S1x256 (m ((c : Thread nD τ).loc main_arg1)) shapeCasts_S256x1_S1x256 := by
  dsimp only [Gen.V, Gen.hostOps0]; after_results; rfl

/-- The bias column the region finds is the bias vector, reshaped. -/
theorem V_bias (c : Dev nD) :
    (V m c main_v1 : S1x256x1.Idx → EReal) = shapeCast S1x256x1 (m ((c : Thread nD τ).loc main_arg2)) shapeCasts_S256_S1x256x1 := by
  dsimp only [Gen.V, Gen.hostOps0]; after_results; rfl

/-- Entry (0, j) of the weight row is entry (j, 0) of the weight column: both sit at row-major position j. -/
theorem weight_at (c : Dev nD) (u : Fin 1) (j : Fin 256) :
    (V m c main_v0 : S1x256.Idx → EReal) (ix2 u j) = m ((c : Thread nD τ).loc main_arg1) (ix2 j (0 : Fin 1)) := by
  rw [V_weight]
  refine shapeCast_apply _ _ (ix2 u j) (ix2 j (0 : Fin 1)) ?_
  have hu : u.val = 0 := by omega
  rw [Shape.rowMajor_val_two, Shape.rowMajor_val_two]
  show j.val * 1 + 0 = u.val * 256 + j.val
  omega

/-- Entry (0, n, 0) of the bias column is entry n of the bias vector: both sit at row-major position n. -/
theorem bias_at (c : Dev nD) (u : Fin 1) (n : Fin 256) (v : Fin 1) :
    (V m c main_v1 : S1x256x1.Idx → EReal) (ix3 u n v) = m ((c : Thread nD τ).loc main_arg2) (ix1 n) := by
  rw [V_bias]
  refine shapeCast_apply _ _ (ix3 u n v) (ix1 n) ?_
  have hu : u.val = 0 := by omega
  have hv : v.val = 0 := by omega
  rw [Shape.rowMajor_val_one, Shape.rowMajor_val_three]
  show n.val = (u.val * 256 + n.val) * 1 + v.val
  omega

/-! ## The index maps over the grid -/

/-- The printed index maps, decided over the 32 points: the input and the output move along the batch axis with the
    point and sit at block 0 on the other axes; the weight row and the bias column stay at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

theorem point_lt (t : Fin cfg0.N) : t.val < 32 := lt_of_lt_of_eq t.isLt N_0

/-- Batch element b of block t is batch element 16·t + b of the array. -/
def batchOf (t : Fin cfg0.N) (b : Fin 16) : Fin 512 :=
  ⟨t.val * 16 + b.val, by have := point_lt t; have := b.isLt; omega⟩

/-! ## Each window's block read at coordinates -/

/-- Entry (b, n, k) of the input block at point t is entry (16·t + b, n, k) of the input array. -/
theorem input_at (c : Dev nD) (t : Fin cfg0.N) (b : Fin 16) (n k : Fin 256) :
    iblk m c 0 t (ix3 b n k) = m ((c : Thread nD τ).loc main_arg0) (ix3 (batchOf t b) n k) := by
  obtain ⟨e0, e1, e2, -⟩ := idx_facts t
  rw [← V_main_arg0 m c]
  show V m c main_arg0 (((cfg0.win 0).blk t).view.emb (ix3 b n k)) = V m c main_arg0 (ix3 (batchOf t b) n k)
  refine congrArg (V m c main_arg0) (funext fun a => Fin.ext ?_)
  match a with
  | ⟨0, _⟩ => show win0_0.index t (0 : Fin 3) * 16 + 1 * b.val = t.val * 16 + b.val; rw [e0]; omega
  | ⟨1, _⟩ => show win0_0.index t (1 : Fin 3) * 256 + 1 * n.val = n.val; rw [e1]; omega
  | ⟨2, _⟩ => show win0_0.index t (2 : Fin 3) * 256 + 1 * k.val = k.val; rw [e2]; omega

/-- The weight window's block at any point is the whole weight row. -/
theorem weightBlock_at (c : Dev nD) (t : Fin cfg0.N) (u : Fin 1) (j : Fin 256) :
    iblk m c 1 t (ix2 u j) = m ((c : Thread nD τ).loc main_arg1) (ix2 j (0 : Fin 1)) := by
  obtain ⟨-, -, -, e3, e4, -⟩ := idx_facts t
  rw [← weight_at m c u j]
  show V m c main_v0 (((cfg0.win 1).blk t).view.emb (ix2 u j)) = V m c main_v0 (ix2 u j)
  refine congrArg (V m c main_v0) (funext fun a => Fin.ext ?_)
  match a with
  | ⟨0, _⟩ => show win0_1.index t (0 : Fin 2) * 1 + 1 * u.val = u.val; rw [e3]; omega
  | ⟨1, _⟩ => show win0_1.index t (1 : Fin 2) * 256 + 1 * j.val = j.val; rw [e4]; omega

/-- The bias window's block at any point is the whole bias column. -/
theorem biasBlock_at (c : Dev nD) (t : Fin cfg0.N) (u : Fin 1) (n : Fin 256) (v : Fin 1) :
    iblk m c 2 t (ix3 u n v) = m ((c : Thread nD τ).loc main_arg2) (ix1 n) := by
  obtain ⟨-, -, -, -, -, e5, e6, e7, -⟩ := idx_facts t
  rw [← bias_at m c u n v]
  show V m c main_v1 (((cfg0.win 2).blk t).view.emb (ix3 u n v)) = V m c main_v1 (ix3 u n v)
  refine congrArg (V m c main_v1) (funext fun a => Fin.ext ?_)
  match a with
  | ⟨0, _⟩ => show win0_2.index t (0 : Fin 3) * 1 + 1 * u.val = u.val; rw [e5]; omega
  | ⟨1, _⟩ => show win0_2.index t (1 : Fin 3) * 256 + 1 * n.val = n.val; rw [e6]; omega
  | ⟨2, _⟩ => show win0_2.index t (2 : Fin 3) * 1 + 1 * v.val = v.val; rw [e7]; omega

/-- Entry (b, n, k) of the output block at point t sits at (16·t + b, n, k) of the output array. -/
theorem output_emb (t : Fin cfg0.N) (b : Fin 16) (n k : Fin 256) :
    ((cfg0.win 3).blk t).view.emb (ix3 b n k) = ix3 (batchOf t b) n k := by
  obtain ⟨-, -, -, -, -, -, -, -, e8, e9, e10⟩ := idx_facts t
  refine funext fun a => Fin.ext ?_
  match a with
  | ⟨0, _⟩ => show win0_3.index t (0 : Fin 3) * 16 + 1 * b.val = t.val * 16 + b.val; rw [e8]; omega
  | ⟨1, _⟩ => show win0_3.index t (1 : Fin 3) * 256 + 1 * n.val = n.val; rw [e9]; omega
  | ⟨2, _⟩ => show win0_3.index t (2 : Fin 3) * 256 + 1 * k.val = k.val; rw [e10]; omega

/-! ## What a point writes back -/

/-- WHAT POINT t WRITES BACK is block t of the result (normaliser outside the sum) of the three argument arrays. -/
theorem flushed_eq (c : Dev nD) (t : Fin cfg0.N) :
    (dats m 0 c).flushed 3 t = ((cfg0.win 3).blk t).view.read (Elt Ideal)
      (resultOut (m ((c : Thread nD τ).loc main_arg0)) (m ((c : Thread nD τ).loc main_arg1)) (m ((c : Thread nD τ).loc main_arg2))) := by
  rw [flushed3]
  unfold out0_3
  rw [View.canon_unit_zero hz3]
  simp only [View.ld_unit_zero (S := S16x256x256) hz3, View.ld_unit_zero (S := S1x256) hz2, View.ld_unit_zero (S := S1x256x1) hz3]
  funext y
  obtain ⟨b, n, k, rfl⟩ : ∃ (b : Fin 16) (n k : Fin 256), y = ix3 b n k := ⟨y 0, y 1, y 2, eq_ix3 y⟩
  show k0_pay1 (iblk m c 0 t) (iblk m c 1 t) (iblk m c 2 t) (ix3 b n k)
    = resultOut (m ((c : Thread nD τ).loc main_arg0)) (m ((c : Thread nD τ).loc main_arg1)) (m ((c : Thread nD τ).loc main_arg2))
        (((cfg0.win 3).blk t).view.emb (ix3 b n k))
  refine (Body.pay_at (iblk m c 0 t) (iblk m c 1 t) (iblk m c 2 t) b n k).trans ?_
  have hX : Body.blkMat (iblk m c 0 t) b = slab (m ((c : Thread nD τ).loc main_arg0)) (batchOf t b) :=
    funext fun n' => funext fun k' => input_at m c t b n' k'
  have hK : Body.wRow (iblk m c 1 t) = col (m ((c : Thread nD τ).loc main_arg1)) :=
    funext fun j => weightBlock_at m c t 0 j
  have hB : Body.bRow (iblk m c 2 t) = vec (m ((c : Thread nD τ).loc main_arg2)) :=
    funext fun n' => biasBlock_at m c t 0 n' 0
  rw [hX, hK, hB, input_at, output_emb]
  rfl

/-! ## The cover, the array, the run -/

/-- An index of the array is in point t's block iff each coordinate is in the block's range on its axis. -/
theorem mem_blk (t : Fin cfg0.N) (i : S512x256x256.Idx) :
    i ∈ ((cfg0.win 3).blk t).view.set ↔ ∀ a : Fin 3, win0_3.index t a * S16x256x256.size a ≤ (i a).val
      ∧ (i a).val < win0_3.index t a * S16x256x256.size a + S16x256x256.size a := by
  show i ∈ ((View.whole main_v2).slice (win0_3.rect t)).set ↔ _
  rw [View.set_slice_whole, Rect.mem_set_unit]
  exact Iff.rfl

/-- Every index of the output is in some point's block: batch element b lies in block b / 16. -/
theorem cover (i : S512x256x256.Idx) :
    ∃ t : Fin cfg0.N, (cfg0.win 3).flush t = true ∧ i ∈ ((cfg0.win 3).blk t).view.set := by
  have hi0 : (i 0).val < 512 := (i 0).isLt
  have hi1 : (i 1).val < 256 := (i 1).isLt
  have hi2 : (i 2).val < 256 := (i 2).isLt
  have hN : cfg0.N = 32 := N_0
  have ht : (i 0).val / 16 < cfg0.N := by rw [hN]; omega
  obtain ⟨-, -, -, -, -, -, -, -, e8, e9, e10⟩ := idx_facts ⟨(i 0).val / 16, ht⟩
  have e8' : win0_3.index ⟨(i 0).val / 16, ht⟩ (0 : Fin 3) = (i 0).val / 16 := e8
  refine ⟨⟨(i 0).val / 16, ht⟩, flush0_3 _, ?_⟩
  rw [mem_blk]
  intro a
  match a with
  | ⟨0, _⟩ =>
    show win0_3.index ⟨(i 0).val / 16, ht⟩ (0 : Fin 3) * 16 ≤ (i 0).val
      ∧ (i 0).val < win0_3.index ⟨(i 0).val / 16, ht⟩ (0 : Fin 3) * 16 + 16
    rw [e8']; omega
  | ⟨1, _⟩ =>
    show win0_3.index ⟨(i 0).val / 16, ht⟩ (1 : Fin 3) * 256 ≤ (i 1).val
      ∧ (i 1).val < win0_3.index ⟨(i 0).val / 16, ht⟩ (1 : Fin 3) * 256 + 256
    rw [e9]; omega
  | ⟨2, _⟩ =>
    show win0_3.index ⟨(i 0).val / 16, ht⟩ (2 : Fin 3) * 256 ≤ (i 2).val
      ∧ (i 2).val < win0_3.index ⟨(i 0).val / 16, ht⟩ (2 : Fin 3) * 256 + 256
    rw [e10]; omega

/-- THE OUTPUT ARRAY after the run is the result of the three argument arrays as launched. -/
theorem final (c : Dev nD) :
    (dats m 0 c).arrAt 3 cfg0.N
      = resultOut (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run: every weakly fair execution terminates with the output at the result of the arguments and the
    arguments unchanged. -/
theorem run : θ_run defs (onTc (τ := τ) (main (F := Ideal))) ⟨m, fun _ => 0, ρ⟩ fun r => ∀ c : Dev nD,
      r.2.mem ((c : Thread nD τ).loc main_v2)
        = resultOut (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Whole

end
-- ==== Proof.RefIsSpec.lean ====
/-
  The reference program read one stage at a time at coordinate indices. With X the batch element b of the input,
  κ the weight column and β the bias: the first contraction is the self-similarity sim X; the sum of its squares along
  a row is ssq X; the reciprocal square root of that sum floored at ε is inv X; the slice at the middle row, reshaped and
  weighted, is gate X κ; the second contraction plus the bias is the logit with the normaliser inside the sum; the
  maximum over the rows, the exponentials, their sum and the quotient are the softmax; and the last product is the result.
-/
import proofs.«123779_j18648747999777_2_alg».proof.Proof.Gen.ReferenceIdeal.Read
import proofs.«123779_j18648747999777_2_alg».proof.Proof.Spec
import Idealize.ShloMosaic.PureOps.Reduce

noncomputable section

open scoped BigOperators

namespace Cert.SimGate

open Cert.ReferenceIdeal Cert.ReferenceIdeal.Gen Cert.ReferenceIdeal.Read Idealize.ShloMosaic Idealize.ShloMosaic.ValueIdx

/-- Two indices of rank three (two, one) are equal when their coordinates are; at literal coordinates each one holds
    by computation. -/
local macro "coords3" : tactic =>
  `(tactic| exact funext fun a => Fin.ext (by match a with | ⟨0, _⟩ => rfl | ⟨1, _⟩ => rfl | ⟨2, _⟩ => rfl))
local macro "coords2" : tactic =>
  `(tactic| exact funext fun a => Fin.ext (by match a with | ⟨0, _⟩ => rfl | ⟨1, _⟩ => rfl))
local macro "coords1" : tactic =>
  `(tactic| exact funext fun a => Fin.ext (by match a with | ⟨0, _⟩ => rfl))

section Stages

variable (x0 : (⟨S512x256x256, .f32⟩ : BufTy).Contents (Elt Ideal)) (x1 : (⟨S256x1, .f32⟩ : BufTy).Contents (Elt Ideal))
  (x2 : (⟨S256, .f32⟩ : BufTy).Contents (Elt Ideal))

/-- The first contraction at (b, n, m) is the self-similarity of rows n and m of batch element b. -/
theorem v0_at (b : Fin 512) (n m : Fin 256) :
    val_main_v0 (F := Ideal) x0 (ix3 b n m) = sim (slab x0 b) n m := by
  rw [val_main_v0_apply]
  show _ = ∑ c : Fin 256, x0 (ix3 b n c) * x0 (ix3 b m c)
  refine Finset.sum_congr rfl fun k _ => ?_
  exact congrArg₂ (fun p q => x0 p * x0 q) (by coords3) (by coords3)

/-- Its square. -/
theorem v1_at (b : Fin 512) (n m : Fin 256) :
    val_main_v1 (F := Ideal) x0 (ix3 b n m) = sim (slab x0 b) n m * sim (slab x0 b) n m := by
  show val_main_v0 (F := Ideal) x0 (ix3 b n m) * val_main_v0 (F := Ideal) x0 (ix3 b n m) = _
  rw [v0_at]

/-- The sum of the squares along row n, from the zero word: the squared length of the row. -/
theorem v2_at (b : Fin 512) (n : Fin 256) :
    val_main_v2 (F := Ideal) x0 (ix2 b n) = ssq (slab x0 b) n := by
  rw [val_main_v2_apply]
  show Ideal.ofBits .f32 0x00000000#32 + _ = ∑ m : Fin 256, sim (slab x0 b) n m * sim (slab x0 b) n m
  rw [Ideal.ofBits_zero_f32, zero_add]
  refine Finset.sum_congr rfl fun k _ => ?_
  rw [show idx_main_v2 (ix2 b n) k = ix3 b n k by coords3, v1_at]

/-- The reciprocal square root of the squared length floored at ε: the normaliser of row n. -/
theorem v6_at (b : Fin 512) (n : Fin 256) :
    val_main_v6 (F := Ideal) x0 (ix3 b n (0 : Fin 1)) = inv (slab x0 b) n := by
  rw [val_main_v6_apply, val_main_v5_apply, val_main_v3_apply, val_main_v4_apply,
    show idx_main_v3 (ix3 b n (0 : Fin 1)) = ix2 b n by coords2, v2_at]
  rfl

/-- The normalised self-similarity. -/
theorem v8_at (b : Fin 512) (n m : Fin 256) :
    val_main_v8 (F := Ideal) x0 (ix3 b n m) = sim (slab x0 b) n m * inv (slab x0 b) n := by
  rw [val_main_v8_apply, val_main_v7_apply, show idx_main_v7 (ix3 b n m) = ix3 b n (0 : Fin 1) by coords3, v0_at, v6_at]
  rfl

/-- The middle row of the normalised self-similarity (the slice at row 128, reshaped: (b·256 + m) / 256 = b and
    (b·256 + m) % 256 = m), weighted by κ: the gate vector. -/
theorem v14_at (b : Fin 512) (m : Fin 256) :
    val_main_v14 (F := Ideal) x0 x1 (ix3 b m (0 : Fin 1)) = gate (slab x0 b) (col x1) m := by
  rw [val_main_v14_apply, val_main_v11_apply, val_main_v10_apply, val_main_v9_apply, val_main_v13_apply,
    val_main_v12_apply]
  have e1 : idx_main_v9 (idx_main_v10 (idx_main_v11 (ix3 b m (0 : Fin 1)))) = ix3 b mid m :=
    funext fun a => Fin.ext (by
      have hm : m.val < 256 := m.isLt
      match a with
      | ⟨0, _⟩ => show (b.val * 256 + m.val) / 256 = b.val; omega
      | ⟨1, _⟩ => rfl
      | ⟨2, _⟩ => show (b.val * 256 + m.val) % 256 = m.val; omega)
  have e2 : idx_main_v12 (idx_main_v13 (ix3 b m (0 : Fin 1))) = ix2 m (0 : Fin 1) := by coords2
  rw [e1, e2, v8_at]
  rfl

/-- The second contraction plus the bias: the logit of row n with the normaliser inside the sum. -/
theorem v18_at (b : Fin 512) (n : Fin 256) :
    val_main_v18 (F := Ideal) x0 x1 x2 (ix3 b n (0 : Fin 1)) = logitIn (slab x0 b) (col x1) (vec x2) n := by
  rw [val_main_v18_apply, val_main_v15_apply, val_main_v17_apply, val_main_v16_apply,
    show idx_main_v16 (idx_main_v17 (ix3 b n (0 : Fin 1))) = ix1 n by coords1]
  show (∑ k : Fin 256, _) + _
    = (∑ m : Fin 256, sim (slab x0 b) n m * inv (slab x0 b) n * gate (slab x0 b) (col x1) m) + x2 (ix1 n)
  refine congrArg (· + x2 (ix1 n)) (Finset.sum_congr rfl fun k _ => ?_)
  rw [show lidx_main_v15 (ix3 b n (0 : Fin 1)) k = ix3 b n k by coords3,
    show ridx_main_v15 (ix3 b n (0 : Fin 1)) k = ix3 b k (0 : Fin 1) by coords3, v8_at, v14_at]

/-- The maximum over the rows: the reduction over axis 1 at (b, 0) folds max from the word of -∞ over the logits. -/
theorem v19_at (b : Fin 512) :
    val_main_v19 (F := Ideal) x0 x1 x2 (ix2 b (0 : Fin 1)) = top (logitIn (slab x0 b) (col x1) (vec x2)) := by
  have h : S512x256x1.Reduces [1] S512x1 := by decide
  unfold val_main_v19
  rw [Host.reduce_eq_fold_single FloatOps.maximumf _ _ reducesTo_S512x256x1_S512x1_d1 h h_S_]
  have hf : (val_main_v18 (F := Ideal) x0 x1 x2 ∘ h.lift (ix2 b (0 : Fin 1)))
      = logitIn (slab x0 b) (col x1) (vec x2) :=
    funext fun k => by
      show val_main_v18 (F := Ideal) x0 x1 x2 (h.lift (ix2 b (0 : Fin 1)) k) = _
      rw [show h.lift (ix2 b (0 : Fin 1)) k = ix3 b k (0 : Fin 1) by coords3]
      exact v18_at x0 x1 x2 b k
  rw [hf]
  rfl

/-- Taking the maximum with -∞ once more changes nothing: the fold already starts from -∞. -/
theorem v21_at (b : Fin 512) :
    val_main_v21 (F := Ideal) x0 x1 x2 (ix2 b (0 : Fin 1)) = top (logitIn (slab x0 b) (col x1) (vec x2)) := by
  rw [val_main_v21_apply, v19_at]
  show max negInf (top _) = top _
  exact max_eq_right ((Finset.le_fold_max _).mpr (Or.inl le_rfl))

/-- The exponential of the logit shifted by the largest one. -/
theorem v25_at (b : Fin 512) (n : Fin 256) :
    val_main_v25 (F := Ideal) x0 x1 x2 (ix3 b n (0 : Fin 1))
      = Ideal.exp (logitIn (slab x0 b) (col x1) (vec x2) n - top (logitIn (slab x0 b) (col x1) (vec x2))) := by
  rw [val_main_v25_apply, val_main_v24_apply, val_main_v23_apply, val_main_v22_apply, v18_at,
    show idx_main_v22 (idx_main_v23 (ix3 b n (0 : Fin 1))) = ix2 b (0 : Fin 1) by coords2, v21_at]
  rfl

/-- The sum of those exponentials over the rows, from the zero word. -/
theorem v26_at (b : Fin 512) :
    val_main_v26 (F := Ideal) x0 x1 x2 (ix2 b (0 : Fin 1))
      = ∑ n' : Fin 256,
          Ideal.exp (logitIn (slab x0 b) (col x1) (vec x2) n' - top (logitIn (slab x0 b) (col x1) (vec x2))) := by
  rw [val_main_v26_apply]
  show Ideal.ofBits .f32 0x00000000#32 + _ = _
  rw [Ideal.ofBits_zero_f32, zero_add]
  refine Finset.sum_congr rfl fun k _ => ?_
  rw [show idx_main_v26 (ix2 b (0 : Fin 1)) k = ix3 b k (0 : Fin 1) by coords3, v25_at]

/-- The quotient: the softmax weight of row n. -/
theorem v29_at (b : Fin 512) (n : Fin 256) :
    val_main_v29 (F := Ideal) x0 x1 x2 (ix3 b n (0 : Fin 1)) = soft (logitIn (slab x0 b) (col x1) (vec x2)) n := by
  rw [val_main_v29_apply, val_main_v28_apply, val_main_v27_apply, v25_at,
    show idx_main_v27 (idx_main_v28 (ix3 b n (0 : Fin 1))) = ix2 b (0 : Fin 1) by coords2, v26_at]
  rfl

/-- The last stage of the reference program is the result with the normaliser inside the sum. -/
theorem reference_eq : val_main_v31 (F := Ideal) x0 x1 x2 = resultIn x0 x1 x2 := by
  funext i
  obtain ⟨b, n, c, rfl⟩ : ∃ (b : Fin 512) (n : Fin 256) (c : Fin 256), i = ix3 b n c := ⟨i 0, i 1, i 2, eq_ix3 i⟩
  rw [val_main_v31_apply, val_main_v30_apply, show idx_main_v30 (ix3 b n c) = ix3 b n (0 : Fin 1) by coords3, v29_at]
  rfl

end Stages

end Cert.SimGate

end
-- ==== Proof.RealLaw.lean ====
/-
  Moving the normaliser across the sum, on the extended reals.
  On the extended reals a · Σ_m b_m = Σ_m a · b_m can fail when an infinity meets a sum of mixed signs, so the law is
  proved by first showing that every quantity involved is a real number: the self-similarity is a finite sum of products
  of reals; a squared length is a finite sum of squares, so a real that is ≥ 0; the floor ε is a positive real, so
  max (ssq n) ε is a positive real and its inverse square root is the real (√r)⁻¹; the gate is a product of three reals.
  Among reals the law is distributivity of multiplication over a finite sum.
-/
import proofs.«123779_j18648747999777_2_alg».proof.Proof.Spec

noncomputable section

open scoped BigOperators

namespace Cert.SimGate

open Idealize.ShloMosaic Idealize.ShloMosaic.ValueIdx

/-- The inclusion of the reals in the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The floor ε is a positive real: its word has sign 0, exponent field 87 and fraction field 834764, so it denotes
    (2^23 + 834764) · 2^(87 - 127 - 23) = 9223372 · 2^(-63). -/
theorem eps_pos_real : ∃ e : ℝ, 0 < e ∧ eps = (e : EReal) := by
  refine ⟨(9223372 : ℝ) * (2 : ℝ) ^ (-63 : ℤ), by positivity, ?_⟩
  unfold eps
  simp [Ideal.ofBits, Ideal.ieee, -EReal.coe_mul]

/-- The inverse square root of a positive real is the real (√r)⁻¹. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The self-similarity of a real matrix is real. -/
theorem sim_real (X : Mat) (hX : ∀ n c, ∃ r : ℝ, X n c = (r : EReal)) (n m : Fin 256) :
    ∃ r : ℝ, sim X n m = (r : EReal) := by
  choose x hx using hX
  refine ⟨∑ c : Fin 256, x n c * x m c, ?_⟩
  unfold sim
  rw [coe_sum]
  refine Finset.sum_congr rfl fun c _ => ?_
  rw [hx, hx, EReal.coe_mul]

/-- A squared length is a real that is ≥ 0. -/
theorem ssq_real (X : Mat) (hX : ∀ n c, ∃ r : ℝ, X n c = (r : EReal)) (n : Fin 256) :
    ∃ r : ℝ, 0 ≤ r ∧ ssq X n = (r : EReal) := by
  choose s hs using sim_real X hX
  refine ⟨∑ m : Fin 256, s n m * s n m, Finset.sum_nonneg fun m _ => mul_self_nonneg _, ?_⟩
  unfold ssq
  rw [coe_sum]
  refine Finset.sum_congr rfl fun m _ => ?_
  rw [hs, EReal.coe_mul]

/-- The normaliser of a row of a real matrix is real: max (ssq n) ε is a positive real. -/
theorem inv_real (X : Mat) (hX : ∀ n c, ∃ r : ℝ, X n c = (r : EReal)) (n : Fin 256) :
    ∃ r : ℝ, inv X n = (r : EReal) := by
  obtain ⟨q, _, hq⟩ := ssq_real X hX n
  obtain ⟨e, he0, he⟩ := eps_pos_real
  refine ⟨(Real.sqrt (max q e))⁻¹, ?_⟩
  unfold inv
  rw [hq, he, ← EReal.coe_strictMono.monotone.map_max, rsqrt_coe_pos (lt_max_of_lt_right he0)]

/-- The gate of a real matrix with real weights is real. -/
theorem gate_real (X : Mat) (κ : Row) (hX : ∀ n c, ∃ r : ℝ, X n c = (r : EReal))
    (hκ : ∀ m, ∃ r : ℝ, κ m = (r : EReal)) (m : Fin 256) : ∃ r : ℝ, gate X κ m = (r : EReal) := by
  obtain ⟨s, hs⟩ := sim_real X hX mid m
  obtain ⟨v, hv⟩ := inv_real X hX mid
  obtain ⟨w, hw⟩ := hκ m
  refine ⟨s * v * w, ?_⟩
  unfold gate
  rw [hs, hv, hw, EReal.coe_mul, EReal.coe_mul]

/-- where every entry of X and κ is a real number, moving the normaliser across the sum changes nothing -/
theorem logitOut_eq_logitIn (X : Mat) (κ β : Row) (hX : ∀ n c, ∃ r : ℝ, X n c = (r : EReal))
    (hκ : ∀ m, ∃ r : ℝ, κ m = (r : EReal)) :
    logitOut X κ β = logitIn X κ β := by
  funext n
  obtain ⟨v, hv⟩ := inv_real X hX n
  choose s hs using sim_real X hX n
  choose g hg using gate_real X κ hX hκ
  have h1 : (∑ m : Fin 256, sim X n m * gate X κ m) = ((∑ m : Fin 256, s m * g m : ℝ) : EReal) := by
    rw [coe_sum]
    refine Finset.sum_congr rfl fun m _ => ?_
    rw [hs, hg, EReal.coe_mul]
  have h2 : (∑ m : Fin 256, sim X n m * inv X n * gate X κ m)
      = ((∑ m : Fin 256, s m * v * g m : ℝ) : EReal) := by
    rw [coe_sum]
    refine Finset.sum_congr rfl fun m _ => ?_
    rw [hs, hg, hv, EReal.coe_mul, EReal.coe_mul]
  have h3 : v * ∑ m : Fin 256, s m * g m = ∑ m : Fin 256, s m * v * g m := by
    rw [Finset.mul_sum]
    refine Finset.sum_congr rfl fun m _ => ?_
    ring
  unfold logitOut logitIn
  refine congrArg (· + β n) ?_
  rw [h1, h2, hv, ← EReal.coe_mul, h3]

/-- The two whole results agree on real inputs: each batch element's matrix and the weight column have real entries,
    so the logits agree row by row, and the rest of the expression is the same on both sides. -/
theorem resultOut_eq_resultIn (x : (⟨3, ![512, 256, 256]⟩ : Shape).Idx → EReal)
    (k : (⟨2, ![256, 1]⟩ : Shape).Idx → EReal) (β : (⟨1, ![256]⟩ : Shape).Idx → EReal)
    (hx : ∀ i, ∃ r : ℝ, x i = (r : EReal)) (hk : ∀ i, ∃ r : ℝ, k i = (r : EReal)) :
    resultOut x k β = resultIn x k β := by
  funext i
  unfold resultOut resultIn
  rw [logitOut_eq_logitIn (slab x (i 0)) (col k) (vec β) (fun n c => hx _) (fun m => hk _)]

end Cert.SimGate

end
-- ==== Proof.FiniteInputs.lean ====
/-
  From "every float input is finite" to "every entry is a real number", on the extended reals.
  The precondition says, of each of the three input arrays, that the conjunction over all its entries of |x| < +∞ is true,
  and joins the three by "and". A conjunction of one-bit words that is 1 had a 1 at every entry; the comparison being 1
  says max x (-x) < ⊤ (the f32 word 0x7F800000 is ⊤); and an extended real with max x (-x) < ⊤ is neither ⊤ nor ⊥,
  so it is a real number.
-/
import proofs.«123779_j18648747999777_2_alg».proof.Pre_finite_inputs
import Idealize.ShloMosaic.Lib.ReduceAll
import Idealize.ShloMosaic.PureOps.Ideal.Laws
import Idealize.ShloMosaic.Lib.ValueIdx

namespace Cert.SimGate

open Idealize.ShloMosaic

/-- The scalar shape has one index. -/
instance : Subsingleton Cert.Pre_finite_inputs.S_.Idx := ⟨fun a b => funext fun d => d.elim0⟩

/-- The f32 word 0x7F800000 is +∞. -/
theorem posInf_eq_top : Ideal.ofBits .f32 0x7F800000#32 = (⊤ : EReal) := by simp [Ideal.ofBits, Ideal.ieee]

/-- An extended real whose absolute value max x (-x) is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The element test |x| < +∞, true at x, makes x a real number. -/
theorem real_of_test (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [posInf_eq_top] at h'
  refine real_of_abs_lt_top x ?_
  by_contra hn
  simp [Ideal.cmp, hn] at h'

theorem real_of_finite_inputs [Cert.Pre_finite_inputs.Facts]
    (x0 : FVec Ideal Cert.Pre_finite_inputs.S512x256x256 .f32) (x1 : FVec Ideal Cert.Pre_finite_inputs.S256x1 .f32) (x2 : FVec Ideal Cert.Pre_finite_inputs.S256 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have e := congrFun h ValueIdx.ix0
  dsimp only [Cert.Pre_finite_inputs.fn] at e
  obtain ⟨e01, e2⟩ := IntOp.andi_eq_one.1 e
  obtain ⟨e0, e1⟩ := IntOp.andi_eq_one.1 e01
  refine ⟨fun i => ?_, fun i => ?_, fun i => ?_⟩
  · exact real_of_test (x0 i) (Host.reduce_andi_all _ _ _ _ _ e0 i)
  · exact real_of_test (x1 i) (Host.reduce_andi_all _ _ _ _ _ e1 i)
  · exact real_of_test (x2 i) (Host.reduce_andi_all _ _ _ _ _ e2 i)

end Cert.SimGate
-- ==== Proof.lean ====
/-
  The kernel computes, for each of 512 batch elements X (256 rows by 256 features), the softmax over the rows of a
  gating logit, times X. The logit of row n is the row n of the self-similarity X·Xᵀ, normalised to unit length
  (its squared length floored at ε), against the normalised middle row weighted by a learned column, plus a bias.
  The kernel takes the row's normaliser OUTSIDE the contraction — inv n · Σ_m sim n m · gate m — and the reference
  INSIDE it — Σ_m (sim n m · inv n) · gate m. On the extended reals the two differ only where an infinity meets the
  sum, and the precondition (every input finite) rules that out: every entry of the self-similarity, every normaliser
  (the floor ε is a positive real) and every gate entry is then a real number, and among reals the law is distributivity.
  Everything else — the two contractions, the sums, the maximum, the exponentials, the quotient — is the same function
  on both sides once read at an index: the rounding to a narrower format on the way into a matrix product is the
  identity on extended reals, a product into a zero accumulator is the host's product, a sum or maximum over an axis is
  the same sum or maximum whatever the tiling, and the reference's extra maximum with -∞ changes nothing.
  The kernel's side is read block by block (32 points of 16 batch elements each) and assembled into one whole-array
  function; the reference's side is read one host operation at a time.
-/
import proofs.«123779_j18648747999777_2_alg».proof.Defs
import proofs.«123779_j18648747999777_2_alg».proof.Proof.Gen.Kernel
import proofs.«123779_j18648747999777_2_alg».proof.Proof.Gen.Kernel.Skeleton
import proofs.«123779_j18648747999777_2_alg».proof.Proof.Gen.Kernel.Launch
import proofs.«123779_j18648747999777_2_alg».proof.Proof.Gen.Kernel.Points
import proofs.«123779_j18648747999777_2_alg».proof.Proof.Gen.Kernel.Frame
import proofs.«123779_j18648747999777_2_alg».proof.Proof.Gen.KernelIdeal
import proofs.«123779_j18648747999777_2_alg».proof.Proof.Gen.KernelIdeal.Skeleton
import proofs.«123779_j18648747999777_2_alg».proof.Proof.Gen.KernelIdeal.Launch
import proofs.«123779_j18648747999777_2_alg».proof.Proof.Gen.KernelIdeal.Points
import proofs.«123779_j18648747999777_2_alg».proof.Proof.Gen.KernelIdeal.Frame
import proofs.«123779_j18648747999777_2_alg».proof.Proof.Gen.ReferenceIdeal
import proofs.«123779_j18648747999777_2_alg».proof.Proof.Gen.Pre_finite_inputs
import proofs.«123779_j18648747999777_2_alg».proof.Proof.Gen.KernelIdeal.Value
import proofs.«123779_j18648747999777_2_alg».proof.Proof.Gen.ReferenceIdeal.Run
import proofs.«123779_j18648747999777_2_alg».proof.Proof.Gen.ReferenceIdeal.Read
import proofs.«123779_j18648747999777_2_alg».proof.Proof.KernelValue
import proofs.«123779_j18648747999777_2_alg».proof.Proof.RefIsSpec
import proofs.«123779_j18648747999777_2_alg».proof.Proof.RealLaw
import proofs.«123779_j18648747999777_2_alg».proof.Proof.FiniteInputs
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- And the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no rewrite to account for. -/
theorem preserves : Cert.preserves_Kernel_KernelIdeal := trivial

/-- On finite inputs the two programs end with the same array: the kernel's output is the result with the normaliser
    outside the sum, the reference's the result with it inside, of the same arguments; finite inputs are real, and on
    real inputs the two results are one function. -/
theorem algebraic : Cert.algebraic_KernelIdeal_ReferenceIdeal := by
  intro m ρ m' ρ' hpre hagree
  refine ⟨fun c => Cert.SimGate.resultOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, -⟩ := Cert.SimGate.real_of_finite_inputs _ _ _ (hpre c)
  rw [Cert.ReferenceIdeal.Read.val_main_v31_eq, Cert.SimGate.reference_eq, (hagree c).1, (hagree c).2.1, (hagree c).2.2]
  exact (Cert.SimGate.resultOut_eq_resultIn _ _ _ h0 h1).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
